-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x32x64 : Shape := ⟨3, ![50000, 32, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32x64 : S_.BroadcastsInDim S50000x32x64 (![] : Fin 0 → Fin S50000x32x64.rank)
  reducesTo_S50000x32x64_S_d0_1_2 : S50000x32x64.ReducesTo [0, 1, 2] S_

variable [Facts]

def fn_part1 {F : FTy → Type} [FloatOps F] (main_v13 : IVec S_ 1) (main_v16 : IVec S50000x32x64 1) : IVec S_ 1 :=
  let main_c_5 : IVec S_ 1 := constantI S_ 1 1#1
  let main_v17 : IVec S_ 1 := (fun x v => Host.reduce IntOp.andi x v reducesTo_S50000x32x64_S_d0_1_2 h_S_) main_v16 main_c_5
  let main_v18 : IVec S_ 1 := andi main_v13 main_v17
  main_v18

def fn {F : FTy → Type} [FloatOps F] (main_arg0 : FVec F S50000x64 .f32) (main_arg1 : FVec F S50000x32x64 .f32) (main_arg2 : FVec F S50000x64 .f32) (main_arg3 : FVec F S50000x32x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32x64 .f32 := Host.absf main_arg1
  let main_cst_0 : FVec F S_ .f32 := constant S_ .f32 0x7F800000#32
  let main_v5 : FVec F S50000x32x64 .f32 := broadcastInDim S50000x32x64 ![] bcast_S_S50000x32x64 main_cst_0
  let main_v6 : IVec S50000x32x64 1 := cmpf .olt main_v4 main_v5
  let main_c_1 : IVec S_ 1 := constantI S_ 1 1#1
  let main_v7 : IVec S_ 1 := (fun x v => Host.reduce IntOp.andi x v reducesTo_S50000x32x64_S_d0_1_2 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x32x64 .f32 := Host.absf main_arg3
  let main_cst_4 : FVec F S_ .f32 := constant S_ .f32 0x7F800000#32
  let main_v15 : FVec F S50000x32x64 .f32 := broadcastInDim S50000x32x64 ![] bcast_S_S50000x32x64 main_cst_4
  let main_v16 : IVec S50000x32x64 1 := cmpf .olt main_v14 main_v15
  fn_part1 (F := F) main_v13 main_v16
-- ==== Kernel.lean ====
abbrev S50000x64 : Shape := ⟨2, ![50000, 64]⟩
abbrev S50000x32x64 : Shape := ⟨3, ![50000, 32, 64]⟩
abbrev S50000x2048 : Shape := ⟨2, ![50000, 2048]⟩
abbrev S400x64 : Shape := ⟨2, ![400, 64]⟩
abbrev S400x2048 : Shape := ⟨2, ![400, 2048]⟩
abbrev S400x1024 : Shape := ⟨2, ![400, 1024]⟩
abbrev S400x512 : Shape := ⟨2, ![400, 512]⟩
abbrev S400x256 : Shape := ⟨2, ![400, 256]⟩
abbrev S400x128 : Shape := ⟨2, ![400, 128]⟩

abbrev nBuf : Space → Nat
  | .hbm => 9
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x32x64, .f32⟩
  | .hbm, ⟨2, _⟩ => ⟨S50000x64, .f32⟩
  | .hbm, ⟨3, _⟩ => ⟨S50000x32x64, .f32⟩
  | .hbm, ⟨4, _⟩ => ⟨S50000x2048, .f32⟩
  | .hbm, ⟨5, _⟩ => ⟨S50000x2048, .f32⟩
  | .hbm, ⟨6, _⟩ => ⟨S50000x64, .f32⟩
  | .hbm, ⟨7, _⟩ => ⟨S50000x2048, .f32⟩
  | .hbm, ⟨8, _⟩ => ⟨S50000x32x64, .f32⟩
  | .local _ .vmem, ⟨0, _⟩ => ⟨S400x64, .f32⟩
  | .local _ .vmem, ⟨1, _⟩ => ⟨S400x64, .f32⟩
  | .local _ .vmem, ⟨2, _⟩ => ⟨S400x2048, .f32⟩
  | .local _ .vmem, ⟨3, _⟩ => ⟨S400x2048, .f32⟩
  | .local _ .vmem, ⟨4, _⟩ => ⟨S400x64, .f32⟩
  | .local _ .vmem, ⟨5, _⟩ => ⟨S400x64, .f32⟩
  | .local _ .vmem, ⟨6, _⟩ => ⟨S400x2048, .f32⟩
  | .local _ .vmem, ⟨7, _⟩ => ⟨S400x2048, .f32⟩
  | .local _ .vmem, ⟨8, _⟩ => ⟨S400x64, .f32⟩
  | .local _ .vmem, ⟨9, _⟩ => ⟨S400x64, .f32⟩
  | .local _ .vmem, ⟨10, _⟩ => ⟨S400x2048, .f32⟩
  | .local _ .vmem, ⟨11, _⟩ => ⟨S400x2048, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S50000x32x64_S50000x2048 : S50000x32x64.ShapeCasts S50000x2048
  inb_S400x64_S400x64_0_0 : ∀ a, (![0, 0] : Fin 2 → Nat) a + S400x64.size a ≤ S400x64.size a
  h_S400x64 : 0 < S400x64.numel
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  slices_S400x2048_o0_0_S400x1024 : S400x2048.Slices ![0, 0] S400x1024
  slices_S400x2048_o0_1024_S400x1024 : S400x2048.Slices ![0, 1024] S400x1024
  slices_S400x1024_o0_0_S400x512 : S400x1024.Slices ![0, 0] S400x512
  slices_S400x1024_o0_512_S400x512 : S400x1024.Slices ![0, 512] S400x512
  slices_S400x512_o0_0_S400x256 : S400x512.Slices ![0, 0] S400x256
  slices_S400x512_o0_256_S400x256 : S400x512.Slices ![0, 256] S400x256
  slices_S400x256_o0_0_S400x128 : S400x256.Slices ![0, 0] S400x128
  slices_S400x256_o0_128_S400x128 : S400x256.Slices ![0, 128] S400x128
  slices_S400x128_o0_0_S400x64 : S400x128.Slices ![0, 0] S400x64
  slices_S400x128_o0_64_S400x64 : S400x128.Slices ![0, 64] S400x64
  concatenates_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x2048_d1 : Shape.Concatenates [S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64] S400x2048 1
  shapeCasts_S50000x2048_S50000x32x64 : S50000x2048.ShapeCasts S50000x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S50000x64.size a
  hwx0_0 : ∀ i : grid0.Coords, EltTy.bits .f32 = 32 ∨ (Rect.block (s := S50000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x2048.size a ≤ S50000x2048.size a
  hwx0_1 : ∀ i : grid0.Coords, EltTy.bits .f32 = 32 ∨ (Rect.block (s := S50000x2048) S400x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S50000x64.size a
  hwx0_2 : ∀ i : grid0.Coords, EltTy.bits .f32 = 32 ∨ (Rect.block (s := S50000x64) S400x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x2048.size a ≤ S50000x2048.size a
  hwx0_3 : ∀ i : grid0.Coords, EltTy.bits .f32 = 32 ∨ (Rect.block (s := S50000x2048) S400x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S50000x64.size a
  hwx0_4 : ∀ i : grid0.Coords, EltTy.bits .f32 = 32 ∨ (Rect.block (s := S50000x64) S400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x2048.size a ≤ S50000x2048.size a
  hwx0_5 : ∀ i : grid0.Coords, EltTy.bits .f32 = 32 ∨ (Rect.block (s := S50000x2048) S400x2048.size (cc0_transform_5 i) (hinb0_5 i)).WholeWords (EltTy.packing .f32)

variable [Facts₀]

abbrev win0_0 : Pipeline.Window sig grid0 :=
  Pipeline.Window.ofSpec (Memref.whole main_arg0) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S400x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x32x64 : Shape := ⟨3, ![50000, 32, 64]⟩
abbrev S_ : Shape := ⟨0, ![]⟩
abbrev S50000x1x64 : Shape := ⟨3, ![50000, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x32x64, .f32⟩
  | .hbm, ⟨2, _⟩ => ⟨S50000x64, .f32⟩
  | .hbm, ⟨3, _⟩ => ⟨S50000x32x64, .f32⟩
  | .hbm, ⟨4, _⟩ => ⟨S_, .f32⟩
  | .hbm, ⟨5, _⟩ => ⟨S50000x64, .f32⟩
  | .hbm, ⟨6, _⟩ => ⟨S50000x64, .f32⟩
  | .hbm, ⟨7, _⟩ => ⟨S50000x1x64, .f32⟩
  | .hbm, ⟨8, _⟩ => ⟨S50000x32x64, .f32⟩
  | .hbm, ⟨9, _⟩ => ⟨S50000x32x64, .f32⟩
  | .hbm, ⟨10, _⟩ => ⟨S_, .f32⟩
  | .hbm, ⟨11, _⟩ => ⟨S50000x64, .f32⟩
  | .hbm, ⟨12, _⟩ => ⟨S50000x64, .f32⟩
  | .hbm, ⟨13, _⟩ => ⟨S_, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S_, .f32⟩
  | .hbm, ⟨18, _⟩ => ⟨S50000x32x64, .f32⟩
  | .hbm, ⟨19, _⟩ => ⟨S50000x32x64, .f32⟩
  | .hbm, ⟨20, _⟩ => ⟨S_, .f32⟩
  | .hbm, ⟨21, _⟩ => ⟨S50000x32x64, .f32⟩
  | .hbm, ⟨22, _⟩ => ⟨S50000x32x64, .f32⟩
  | .hbm, ⟨23, _⟩ => ⟨S50000x32x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S50000x32x64_S50000x64_d1 : S50000x32x64.ReducesTo [1] S50000x64
  h_S_ : 0 < S_.numel
  bcast_S50000x64_S50000x1x64_0_2 : S50000x64.BroadcastsInDim S50000x1x64 (![0, 2] : Fin 2 → Fin S50000x1x64.rank)
  bcast_S50000x1x64_S50000x32x64_0_1_2 : S50000x1x64.BroadcastsInDim S50000x32x64 (![0, 1, 2] : Fin 3 → Fin S50000x32x64.rank)
  bcast_S_S50000x64 : S_.BroadcastsInDim S50000x64 (![] : Fin 0 → Fin S50000x64.rank)
  bcast_S_S50000x32x64 : S_.BroadcastsInDim S50000x32x64 (![] : Fin 0 → Fin S50000x32x64.rank)

variable [Facts₀]

class Facts : Prop extends Facts₀ where

variable [Facts]
-- ==== Proof.Blend.lean ====
/-
  The residual blend, as functions of the argument arrays.

  With `keep` the f32 number nearest 0.9 and `init` the f32 number nearest 0.1 (the same two words in both programs, so
  their values are never needed beyond `keep` being a nonnegative real), the two results are

    node  (n, d)    = keep · (x (n, d) + Σ_k g (n, k, d)) + init · h (n, d)
    slot  (n, k, d) = keep · (g (n, k, d) + x (n, d))     + init · nb (n, k, d)

  The kernel works on the neighbour arrays flattened to 2048 columns, column `k · 64 + d` holding entry `(k, d)`, and
  computes the slot result as `(keep · g + keep · x) + init · nb`; multiplication by a nonnegative real distributes
  over addition on ALL extended reals (`keep_distrib`), so the two spellings agree whatever the inputs are.
-/
import Idealize.ShloMosaic.PureOps.Ideal
import Idealize.ShloMosaic.Lib.ValueIdx
import Mathlib.Data.EReal.Operations
import Mathlib.Tactic.NormNum

noncomputable section

namespace Blend

open Idealize.ShloMosaic Idealize.ShloMosaic.ValueIdx

/-- The weight of the aggregated features: the f32 word `0x3F666666`. -/
abbrev keep : EReal := Ideal.ofBits .f32 0x3F666666#32
/-- The weight of the initial features: the f32 word `0x3DCCCCCD`. -/
abbrev init : EReal := Ideal.ofBits .f32 0x3DCCCCCD#32

/-- The word `0x3F666666` denotes the real `15099494 / 2^24`. -/
theorem keep_eq : keep = ((15099494 / 16777216 : ℝ) : EReal) := by
  simp [keep, Ideal.ofBits, Ideal.ieee, -EReal.coe_mul]; norm_num

theorem keep_nonneg : 0 ≤ keep := by
  rw [keep_eq]; exact_mod_cast (by norm_num : (0 : ℝ) ≤ 15099494 / 16777216)

theorem keep_ne_top : keep ≠ ⊤ := by
  rw [keep_eq]; exact EReal.coe_ne_top _

/-- Multiplying by `keep` distributes over any sum of two extended reals, infinite or not: `keep` is a nonnegative
    real. -/
theorem keep_distrib (y z : EReal) : keep * (y + z) = keep * y + keep * z :=
  EReal.left_distrib_of_nonneg_of_ne_top keep_nonneg keep_ne_top y z

/-- Column `k · 64 + d` of a row of 2048: where entry `(k, d)` of a 32 × 64 table sits when flattened. -/
def flatCol (k : Fin 32) (d : Fin 64) : Fin 2048 := ⟨k.val * 64 + d.val, by have := k.isLt; have := d.isLt; omega⟩

@[simp] theorem flatCol_val (k : Fin 32) (d : Fin 64) : (flatCol k d).val = k.val * 64 + d.val := rfl

/-- The feature a flattened column belongs to: the column number modulo 64. -/
def lane (c : Fin 2048) : Fin 64 := ⟨c.val % 64, Nat.mod_lt _ (by decide)⟩

@[simp] theorem lane_val (c : Fin 2048) : (lane c).val = c.val % 64 := rfl

theorem lane_flatCol (k : Fin 32) (d : Fin 64) : lane (flatCol k d) = d := by
  apply Fin.ext; have := d.isLt; simp only [lane_val, flatCol_val]; omega

abbrev SNode : Shape := ⟨2, ![50000, 64]⟩
abbrev SSlot : Shape := ⟨3, ![50000, 32, 64]⟩
abbrev SFlat : Shape := ⟨2, ![50000, 2048]⟩

/-- The node result: `keep · (x + Σ_k g) + init · h`, from the three-axis neighbour array. -/
def node (x h : FVec Ideal SNode .f32) (g : FVec Ideal SSlot .f32) : FVec Ideal SNode .f32 :=
  fun i => keep * (x i + ∑ k : Fin 32, g (ix3 (i 0) k (i 1))) + init * h i

/-- The slot result: `keep · (g + x) + init · nb`, the node's own feature added into each of its 32 slots. -/
def slot (x : FVec Ideal SNode .f32) (g nb : FVec Ideal SSlot .f32) : FVec Ideal SSlot .f32 :=
  fun i => keep * (g i + x (ix2 (i 0) (i 2))) + init * nb i

/-- The node result from the neighbour array flattened to 2048 columns. -/
def nodeFlat (x h : FVec Ideal SNode .f32) (g : FVec Ideal SFlat .f32) : FVec Ideal SNode .f32 :=
  fun i => keep * (x i + ∑ k : Fin 32, g (ix2 (i 0) (flatCol k (i 1)))) + init * h i

/-- The slot result, flattened, in the kernel's spelling: `(keep · g + keep · x) + init · nb`, the feature read at the
    column's lane. -/
def slotFlat (x : FVec Ideal SNode .f32) (g nb : FVec Ideal SFlat .f32) : FVec Ideal SFlat .f32 :=
  fun j => keep * g j + keep * x (ix2 (j 0) (lane (j 1))) + init * nb j

end Blend

end
-- ==== Proof.RefBlend.lean ====
/-
  The reference computes the residual blend.

  Read one operation at a time, the reference's first result at `(n, d)` is
  `keep · (x (n, d) + (0 + Σ_k g (n, k, d))) + init · h (n, d)` — the host's sum over the neighbour axis starts from
  the zero word — and its second result at `(n, k, d)` is `keep · (g (n, k, d) + x (n, d)) + init · nb (n, k, d)`, the
  feature array broadcast along the neighbour axis. These are `Blend.node` and `Blend.slot`.
-/
import proofs.«111451_j81192061764219_2_alg».proof.Proof.Gen.ReferenceIdeal.Read
import proofs.«111451_j81192061764219_2_alg».proof.Proof.Blend
import Idealize.ShloMosaic.PureOps.Ideal.Laws

noncomputable section

namespace Cert.ReferenceIdeal.RefBlend

open Cert.ReferenceIdeal Cert.ReferenceIdeal.Read Idealize.ShloMosaic Idealize.ShloMosaic.ValueIdx

/-- The index the host's sum reads for neighbour `k` of output entry `i = (n, d)` is `(n, k, d)`. -/
theorem idx_sum (i : S50000x64.Idx) (k : Fin 32) : idx_main_v0 i k = ix3 (i 0) k (i 1) :=
  funext fun a => Fin.ext (by match a with | ⟨0, _⟩ => rfl | ⟨1, _⟩ => rfl | ⟨2, _⟩ => rfl)

/-- The two broadcasts read the feature array at `(n, d)` for every slot `(n, k, d)`. -/
theorem idx_bcast (i : S50000x32x64.Idx) : idx_main_v2 (idx_main_v3 i) = ix2 (i 0) (i 2) :=
  funext fun a => Fin.ext (by match a with | ⟨0, _⟩ => rfl | ⟨1, _⟩ => rfl)

/-- The reference's first result is the node blend of its arguments. -/
theorem node_eq (x h : (⟨S50000x64, .f32⟩ : BufTy).Contents (Elt Ideal)) (g : (⟨S50000x32x64, .f32⟩ : BufTy).Contents (Elt Ideal)) :
    val_main_v9 (F := Ideal) x g h = Blend.node x h g := by
  funext i
  rw [val_main_v9_apply, val_main_v6_apply, val_main_v5_apply, val_main_cst_0_apply, val_main_v1_apply, val_main_v0_apply,
    val_main_cst_apply, val_main_v8_apply, val_main_v7_apply, val_main_cst_1_apply]
  simp only [Ideal.ofBits_def, Ideal.addf_def, Ideal.mulf_def, Ideal.ofBits_zero_f32, zero_add, idx_sum]
  rfl

/-- The reference's second result is the slot blend of its arguments. -/
theorem slot_eq (x : (⟨S50000x64, .f32⟩ : BufTy).Contents (Elt Ideal)) (g nb : (⟨S50000x32x64, .f32⟩ : BufTy).Contents (Elt Ideal)) :
    val_main_v14 (F := Ideal) x g nb = Blend.slot x g nb := by
  funext i
  rw [val_main_v14_apply, val_main_v11_apply, val_main_v10_apply, val_main_cst_2_apply, val_main_v4_apply, val_main_v3_apply,
    val_main_v2_apply, val_main_v13_apply, val_main_v12_apply, val_main_cst_3_apply]
  simp only [Ideal.ofBits_def, Ideal.addf_def, Ideal.mulf_def, idx_bcast]
  rfl

end Cert.ReferenceIdeal.RefBlend

end
-- ==== Proof.LibHalving.lean ====
/-
  Summing a strided family by repeated halving.

  A sum of `n + n` terms taken at a constant stride splits into its first and second halves, and adding the two halves
  term by term gives a sum of `n` terms of the "halved" family. Five such steps turn a sum of 32 strided terms into
  one entry of a five-level halving tree. Everything here holds in any commutative additive monoid, so in particular
  on the extended reals, where addition is commutative and associative although it is not cancellative.
-/
import Mathlib.Algebra.BigOperators.Intervals
import Mathlib.Algebra.BigOperators.Fin
import Mathlib.Tactic.Ring

namespace Halving

open Finset

variable {M : Type*} [AddCommMonoid M]

/-- One halving step of a row `r` of numbers: entry `c` of the result is entry `c` plus entry `c + w` of `r`. -/
def halve (w : ℕ) (r : ℕ → M) : ℕ → M := fun c => r c + r (c + w)

theorem halve_apply (w : ℕ) (r : ℕ → M) (c : ℕ) : halve w r c = r c + r (c + w) := rfl

/-- Two rows that agree at `c` and at `c + w` have the same halving at `c`. -/
theorem halve_congr (w : ℕ) (r r' : ℕ → M) (c : ℕ) (h₁ : r c = r' c) (h₂ : r (c + w) = r' (c + w)) :
    halve w r c = halve w r' c := by
  rw [halve_apply, halve_apply, h₁, h₂]

/-- A sum of `n + n` terms of `r` at stride `s` from `d` is the sum of `n` terms, at the same stride, of `r` halved at
    distance `s * n`: term `k` of the second half sits `s * n` past term `k` of the first. -/
theorem sum_stride_halve (r : ℕ → M) (d s n : ℕ) :
    ∑ k ∈ range (n + n), r (d + s * k) = ∑ k ∈ range n, halve (s * n) r (d + s * k) := by
  rw [Finset.sum_range_add, ← Finset.sum_add_distrib]
  refine Finset.sum_congr rfl fun k _ => ?_
  rw [halve_apply]
  exact congrArg (fun z => r (d + s * k) + r z) (by ring)

/-- The five-level halving tree over a row of width 2048 with groups of 64: halve at distance 1024, then 512, 256, 128
    and 64. -/
def tree32 (r : ℕ → M) : ℕ → M := halve 64 (halve 128 (halve 256 (halve 512 (halve 1024 r))))

/-- Entry `d` of the five-level tree is the sum of the 32 entries `d, d + 64, …, d + 64 · 31` of the row: each level
    pairs term `k` with term `k + (number of terms left) / 2`, which sits exactly the level's distance further on. -/
theorem tree32_eq_sum (r : ℕ → M) (d : ℕ) : tree32 r d = ∑ k ∈ range 32, r (d + 64 * k) := by
  have e5 : ∑ k ∈ range 32, r (d + 64 * k) = ∑ k ∈ range 16, halve 1024 r (d + 64 * k) :=
    sum_stride_halve r d 64 16
  have e4 : ∑ k ∈ range 16, halve 1024 r (d + 64 * k) = ∑ k ∈ range 8, halve 512 (halve 1024 r) (d + 64 * k) :=
    sum_stride_halve (halve 1024 r) d 64 8
  have e3 : ∑ k ∈ range 8, halve 512 (halve 1024 r) (d + 64 * k)
      = ∑ k ∈ range 4, halve 256 (halve 512 (halve 1024 r)) (d + 64 * k) :=
    sum_stride_halve (halve 512 (halve 1024 r)) d 64 4
  have e2 : ∑ k ∈ range 4, halve 256 (halve 512 (halve 1024 r)) (d + 64 * k)
      = ∑ k ∈ range 2, halve 128 (halve 256 (halve 512 (halve 1024 r))) (d + 64 * k) :=
    sum_stride_halve (halve 256 (halve 512 (halve 1024 r))) d 64 2
  have e1 : ∑ k ∈ range 2, halve 128 (halve 256 (halve 512 (halve 1024 r))) (d + 64 * k)
      = ∑ k ∈ range 1, halve 64 (halve 128 (halve 256 (halve 512 (halve 1024 r)))) (d + 64 * k) :=
    sum_stride_halve (halve 128 (halve 256 (halve 512 (halve 1024 r)))) d 64 1
  rw [e5, e4, e3, e2, e1, Finset.sum_range_one]
  rfl

/-- The same sum over `Fin 32`. -/
theorem tree32_eq_sum_fin (r : ℕ → M) (d : ℕ) : tree32 r d = ∑ k : Fin 32, r (d + 64 * k.val) := by
  rw [tree32_eq_sum, Finset.sum_range]

end Halving
-- ==== Proof.Payload.lean ====
/-
  The kernel body's two stored values, read at an index of the block.

  A block is 400 rows. The first store holds, at row `p` and feature `d`,
  `keep · (x (p, d) + T (p, d)) + init · h (p, d)`, where `T` is a five-level halving tree over the row's 2048 flattened
  neighbour columns: level one adds column `c + 1024` to column `c`, level two column `c + 512` to `c`, … level five
  column `c + 64` to `c`. Since 64 divides every distance, each level pairs whole groups of 64 features, and entry `d`
  of the tree is the sum over the 32 neighbours `k` of column `k · 64 + d`.
  The second store holds, at row `p` and column `c`, `(keep · g (p, c) + keep · x (p, c mod 64)) + init · nb (p, c)`: the
  32 copies of the row's 64 features laid side by side read feature `c mod 64` at column `c`.
-/
import proofs.«111451_j81192061764219_2_alg».proof.Proof.Gen.KernelIdeal.Skeleton
import proofs.«111451_j81192061764219_2_alg».proof.Proof.Blend
import proofs.«111451_j81192061764219_2_alg».proof.Proof.LibHalving
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Halving Blend

/-! ## Rows of a block as functions of the column number -/

/-- Row `p` of a block of `W` columns as a function of the column NUMBER, zero past the width. -/
def rowOf (W : ℕ) (v : FVec Ideal ⟨2, ![400, W]⟩ .f32) (p : Fin 400) : ℕ → EReal :=
  fun c => if h : c < W then v (ix2 p ⟨c, h⟩) else 0

theorem rowOf_of_lt (W : ℕ) (v : FVec Ideal ⟨2, ![400, W]⟩ .f32) (p : Fin 400) (c : ℕ) (h : c < W) :
    rowOf W v p c = v (ix2 p ⟨c, h⟩) := dif_pos h

/-- Adding the right half of a block's columns to its left half halves each row at distance `W`. -/
theorem rowOf_halves (W W2 : ℕ) (hW : W2 = W + W) (v : FVec Ideal ⟨2, ![400, W2]⟩ .f32)
    (hlo : (⟨2, ![400, W2]⟩ : Shape).Slices ![0, 0] ⟨2, ![400, W]⟩)
    (hhi : (⟨2, ![400, W2]⟩ : Shape).Slices ![0, W] ⟨2, ![400, W]⟩) (p : Fin 400) (c : ℕ) (hc : c < W) :
    rowOf W (addf (extractStridedSlice ⟨2, ![400, W]⟩ ![0, 0] v hlo) (extractStridedSlice ⟨2, ![400, W]⟩ ![0, W] v hhi)) p c
      = halve W (rowOf W2 v p) c := by
  have h1 : c < W2 := by omega
  have h2 : c + W < W2 := by omega
  rw [rowOf_of_lt W _ p c hc, halve_apply, rowOf_of_lt W2 v p c h1, rowOf_of_lt W2 v p (c + W) h2, addf_apply]
  refine congrArg₂ (· + ·) ?_ ?_
  · exact extractStridedSlice_apply _ v hlo (ix2 p ⟨c, hc⟩) (ix2 p ⟨c, h1⟩) (fun a => by
      match a with
      | ⟨0, _⟩ => exact (Nat.zero_add _).symm
      | ⟨1, _⟩ => exact (Nat.zero_add _).symm)
  · exact extractStridedSlice_apply _ v hhi (ix2 p ⟨c, hc⟩) (ix2 p ⟨c + W, h2⟩) (fun a => by
      match a with
      | ⟨0, _⟩ => exact (Nat.zero_add _).symm
      | ⟨1, _⟩ => exact Nat.add_comm c W)

/-! ## The halving tree of the body -/

/-- Level one: columns `c` and `c + 1024`. -/
def half1 (g : FVec Ideal S400x2048 .f32) : FVec Ideal S400x1024 .f32 :=
  addf (extractStridedSlice S400x1024 ![0, 0] g slices_S400x2048_o0_0_S400x1024)
    (extractStridedSlice S400x1024 ![0, 1024] g slices_S400x2048_o0_1024_S400x1024)
/-- Level two: columns `c` and `c + 512`. -/
def half2 (g : FVec Ideal S400x1024 .f32) : FVec Ideal S400x512 .f32 :=
  addf (extractStridedSlice S400x512 ![0, 0] g slices_S400x1024_o0_0_S400x512)
    (extractStridedSlice S400x512 ![0, 512] g slices_S400x1024_o0_512_S400x512)
/-- Level three: columns `c` and `c + 256`. -/
def half3 (g : FVec Ideal S400x512 .f32) : FVec Ideal S400x256 .f32 :=
  addf (extractStridedSlice S400x256 ![0, 0] g slices_S400x512_o0_0_S400x256)
    (extractStridedSlice S400x256 ![0, 256] g slices_S400x512_o0_256_S400x256)
/-- Level four: columns `c` and `c + 128`. -/
def half4 (g : FVec Ideal S400x256 .f32) : FVec Ideal S400x128 .f32 :=
  addf (extractStridedSlice S400x128 ![0, 0] g slices_S400x256_o0_0_S400x128)
    (extractStridedSlice S400x128 ![0, 128] g slices_S400x256_o0_128_S400x128)
/-- Level five: columns `c` and `c + 64`. -/
def half5 (g : FVec Ideal S400x128 .f32) : FVec Ideal S400x64 .f32 :=
  addf (extractStridedSlice S400x64 ![0, 0] g slices_S400x128_o0_0_S400x64)
    (extractStridedSlice S400x64 ![0, 64] g slices_S400x128_o0_64_S400x64)

/-- Row `p` of the five levels applied to a block is the five-level halving tree of the block's row `p`. -/
theorem tree_row (g : FVec Ideal S400x2048 .f32) (p : Fin 400) (d : ℕ) (hd : d < 64) :
    rowOf 64 (half5 (half4 (half3 (half2 (half1 g))))) p d = tree32 (rowOf 2048 g p) d := by
  have L1 : ∀ c, c < 1024 → rowOf 1024 (half1 g) p c = halve 1024 (rowOf 2048 g p) c := fun c hc =>
    rowOf_halves 1024 2048 rfl g _ _ p c hc
  have L2 : ∀ c, c < 512 → rowOf 512 (half2 (half1 g)) p c = halve 512 (halve 1024 (rowOf 2048 g p)) c := fun c hc =>
    (rowOf_halves 512 1024 rfl (half1 g) _ _ p c hc).trans
      (halve_congr 512 _ _ c (L1 c (by omega)) (L1 (c + 512) (by omega)))
  have L3 : ∀ c, c < 256 → rowOf 256 (half3 (half2 (half1 g))) p c
      = halve 256 (halve 512 (halve 1024 (rowOf 2048 g p))) c := fun c hc =>
    (rowOf_halves 256 512 rfl (half2 (half1 g)) _ _ p c hc).trans
      (halve_congr 256 _ _ c (L2 c (by omega)) (L2 (c + 256) (by omega)))
  have L4 : ∀ c, c < 128 → rowOf 128 (half4 (half3 (half2 (half1 g)))) p c
      = halve 128 (halve 256 (halve 512 (halve 1024 (rowOf 2048 g p)))) c := fun c hc =>
    (rowOf_halves 128 256 rfl (half3 (half2 (half1 g))) _ _ p c hc).trans
      (halve_congr 128 _ _ c (L3 c (by omega)) (L3 (c + 128) (by omega)))
  exact (rowOf_halves 64 128 rfl (half4 (half3 (half2 (half1 g)))) _ _ p d hd).trans
    (halve_congr 64 _ _ d (L4 d (by omega)) (L4 (d + 64) (by omega)))

/-- Entry `(p, d)` of the tree is the sum over the 32 neighbours `k` of column `k · 64 + d` of row `p`. -/
theorem tree_apply (g : FVec Ideal S400x2048 .f32) (p : Fin 400) (d : Fin 64) :
    half5 (half4 (half3 (half2 (half1 g)))) (ix2 p d) = ∑ k : Fin 32, g (ix2 p (flatCol k d)) := by
  have e := tree_row g p d.val d.isLt
  rw [rowOf_of_lt 64 _ p d.val d.isLt, tree32_eq_sum_fin] at e
  refine e.trans (Finset.sum_congr rfl fun k _ => ?_)
  have hk : d.val + 64 * k.val < 2048 := by have := k.isLt; have := d.isLt; omega
  rw [rowOf_of_lt 2048 g p _ hk]
  exact congrArg (fun c => g (ix2 p c)) (Fin.ext (by show d.val + 64 * k.val = k.val * 64 + d.val; omega))

/-! ## The two stores -/

/-- The body's cast of a block to its own shape changes nothing. -/
theorem pay1_eq (g : Vec Ideal S400x2048 .f32) : k0_pay1 (F := Ideal) g = g := shapeCast_self _ _

/-- The first store at row `p`, feature `d`: the node blend of the block's rows. -/
theorem pay2_apply (x0 h0 : Vec Ideal S400x64 .f32) (g0 : Vec Ideal S400x2048 .f32) (p : Fin 400) (d : Fin 64) :
    k0_pay2 (F := Ideal) x0 h0 g0 (ix2 p d)
      = keep * (x0 (ix2 p d) + ∑ k : Fin 32, g0 (ix2 p (flatCol k d))) + init * h0 (ix2 p d) := by
  have e : k0_pay2 (F := Ideal) x0 h0 g0
      = addf (mulf (broadcast S400x64 (Scalar.ofBits .f32 0x3F666666#32))
            (addf x0 (half5 (half4 (half3 (half2 (half1 (k0_pay1 (F := Ideal) g0))))))))
          (mulf (broadcast S400x64 (Scalar.ofBits .f32 0x3DCCCCCD#32)) h0) := rfl
  rw [e, pay1_eq]
  exact congrArg (fun z => keep * (x0 (ix2 p d) + z) + init * h0 (ix2 p d)) (tree_apply g0 p d)

/-- The 32 copies of the block's 64 features laid side by side read, at column `c`, feature `c mod 64`. -/
theorem tiled_apply (x0 : Vec Ideal S400x64 .f32)
    (h : Shape.Concatenates ((List.replicate 32 (⟨S400x64, x0⟩ : (s : Shape) × (s.Idx → Elt Ideal .f32))).map (·.1)) S400x2048 1)
    (p : Fin 400) (c : Fin 2048) :
    concatenate S400x2048 1 (List.replicate 32 (⟨S400x64, x0⟩ : (s : Shape) × (s.Idx → Elt Ideal .f32))) h (ix2 p c)
      = x0 (ix2 p (lane c)) :=
  concatenate_replicate_apply (t := S400x2048) (s₁ := S400x64) 1 32 x0 h rfl (ix2 p c) (ix2 p (lane c)) rfl
    (fun b hb => by
      match b with
      | ⟨0, _⟩ => rfl
      | ⟨1, _⟩ => exact absurd rfl hb)

/-- The second store at row `p`, column `c`: the slot blend, flattened, in the body's own grouping. -/
theorem pay3_apply (x0 : Vec Ideal S400x64 .f32) (g0 nb0 : Vec Ideal S400x2048 .f32) (p : Fin 400) (c : Fin 2048) :
    k0_pay3 (F := Ideal) x0 g0 nb0 (ix2 p c)
      = keep * g0 (ix2 p c) + keep * x0 (ix2 p (lane c)) + init * nb0 (ix2 p c) := by
  have e : k0_pay3 (F := Ideal) x0 g0 nb0
      = addf (addf (mulf (broadcast S400x2048 (Scalar.ofBits .f32 0x3F666666#32)) (k0_pay1 (F := Ideal) g0))
            (mulf (broadcast S400x2048 (Scalar.ofBits .f32 0x3F666666#32))
              (concatenate S400x2048 1 (List.replicate 32 (⟨S400x64, x0⟩ : (s : Shape) × (s.Idx → Elt Ideal .f32)))
                concatenates_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x2048_d1)))
          (mulf (broadcast S400x2048 (Scalar.ofBits .f32 0x3DCCCCCD#32)) (shapeCast S400x2048 nb0 shapeCasts_S400x2048_S400x2048)) := rfl
  rw [e, pay1_eq, shapeCast_self]
  exact congrArg (fun z => keep * g0 (ix2 p c) + keep * z + init * nb0 (ix2 p c)) (tiled_apply x0 _ p c)

end Cert.KernelIdeal.Payload

end
-- ==== Proof.Blocks.lean ====
/-
  From blocks to arrays.

  Grid point `t` works on rows `400 · t … 400 · t + 399`: every window's block index along the rows is `t`, and its block
  index along the columns is `0` (the blocks are as wide as the arrays). So the block a point writes back to the node
  output is the block of rows `400 · t …` of ONE array-wide function — the flat node blend of the arrays as the region
  finds them — because row `p` of each input block is row `400 · t + p` of its array; likewise for the flat slot output.
  The 125 points' blocks cover all 50000 rows (row `r` lies in the block of point `r / 400`), so after the run each
  output array IS that function.
-/
import proofs.«111451_j81192061764219_2_alg».proof.Proof.Gen.KernelIdeal.Frame
import proofs.«111451_j81192061764219_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Payload Idealize.ShloMosaic Idealize.ShloMosaic.TcCoe
open Idealize.SL.Sem Idealize.ShloMosaic.ValueIdx Blend
open Idealize.ShloMosaic.Pipeline (Dat)

/-! ## One block of the two blends, over plain arrays -/

/-- If row `y 0` of the input blocks is row `i 0` of the arrays (feature for feature, column for column), the first
    store at `y` is the flat node blend of the arrays at `i`. -/
theorem node_block (X H : FVec Ideal SNode .f32) (G : FVec Ideal SFlat .f32)
    (x0 h0 : Vec Ideal S400x64 .f32) (g0 : Vec Ideal S400x2048 .f32) (y : S400x64.Idx) (i : SNode.Idx)
    (hx : x0 y = X i) (hh : h0 y = H i)
    (hg : ∀ k : Fin 32, g0 (ix2 (y 0) (flatCol k (y 1))) = G (ix2 (i 0) (flatCol k (i 1)))) :
    k0_pay2 (F := Ideal) x0 h0 g0 y = nodeFlat X H G i := by
  obtain ⟨p, d, rfl⟩ : ∃ (p : Fin 400) (d : Fin 64), y = ix2 p d := ⟨y 0, y 1, eq_ix2 y⟩
  refine (pay2_apply x0 h0 g0 p d).trans ?_
  have hg' : ∀ k : Fin 32, g0 (ix2 p (flatCol k d)) = G (ix2 (i 0) (flatCol k (i 1))) := hg
  show keep * (x0 (ix2 p d) + ∑ k : Fin 32, g0 (ix2 p (flatCol k d))) + init * h0 (ix2 p d)
    = keep * (X i + ∑ k : Fin 32, G (ix2 (i 0) (flatCol k (i 1)))) + init * H i
  rw [hx, hh, Finset.sum_congr rfl fun k _ => hg' k]

/-- If entry `y` of the flat input blocks is entry `i` of the flat arrays and the features of row `y 0` are those of row
    `i 0`, the second store at `y` is the flat slot blend of the arrays at `i`. -/
theorem slot_block (X : FVec Ideal SNode .f32) (G NB : FVec Ideal SFlat .f32)
    (x0 : Vec Ideal S400x64 .f32) (g0 nb0 : Vec Ideal S400x2048 .f32) (y : S400x2048.Idx) (i : SFlat.Idx)
    (hg : g0 y = G i) (hnb : nb0 y = NB i) (hx : x0 (ix2 (y 0) (lane (y 1))) = X (ix2 (i 0) (lane (i 1)))) :
    k0_pay3 (F := Ideal) x0 g0 nb0 y = slotFlat X G NB i := by
  obtain ⟨p, c, rfl⟩ : ∃ (p : Fin 400) (c : Fin 2048), y = ix2 p c := ⟨y 0, y 1, eq_ix2 y⟩
  refine (pay3_apply x0 g0 nb0 p c).trans ?_
  have hx' : x0 (ix2 p (lane c)) = X (ix2 (i 0) (lane (i 1))) := hx
  show keep * g0 (ix2 p c) + keep * x0 (ix2 p (lane c)) + init * nb0 (ix2 p c)
    = keep * G i + keep * X (ix2 (i 0) (lane (i 1))) + init * NB i
  rw [hg, hnb, hx']

/-! ## The windows' block indices -/

variable (m : (ℓ : Loc nD τ sig) → Buf (Elt Ideal) ℓ)

theorem hz : (![0, 0] : Fin 2 → Nat) = fun _ => 0 := funext fun a => by fin_cases a <;> rfl

/-- Every window's block index along the rows is the node output's, and every block index along the columns is `0`
    (decided over the 125 points). -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_5.index t (0 : Fin 2) = win0_4.index t (0 : Fin 2) ∧ win0_5.index t (1 : Fin 2) = 0
    ∧ win0_4.index t (1 : Fin 2) = 0 :=
  (by decide +kernel : ∀ t : Fin grid0.N, _)

/-- Every block of 400 rows is some point's. -/
theorem idx_onto : ∀ q : Fin 125, ∃ t : Fin cfg0.N, win0_4.index t = ![q.val, 0] :=
  (by decide +kernel : ∀ q : Fin 125, ∃ t : Fin grid0.N, win0_4.index t = ![q.val, 0])

/-! ## What a point writes back -/

/-- What point `t` writes back to the node output is block `t` of the flat node blend of the arrays the region finds:
    row `p` of each input block is row `400 · t + p` of its array. -/
theorem flushed4_eq (c : Dev nD) (t : Fin cfg0.N) :
    (dats m 0 c).flushed 4 t = ((cfg0.win 4).blk t).view.read (Elt Ideal)
      (nodeFlat (V m c main_arg0) (V m c main_arg2) (V m c main_v0)) := by
  show (cfg0.win 4).cut (grid0.coords t) ((dats m 0 c).after 4 t) = _
  rw [after0_4]
  unfold out0_4
  rw [View.canon_unit_zero hz]
  simp only [View.ld_unit_zero (S := S400x64) hz, View.ld_unit_zero (S := S400x2048) hz]
  obtain ⟨e00, e01, e10, e11, e20, e21, e30, e31, e50, e51, e41⟩ := idx_facts t
  funext j
  refine node_block (V m c main_arg0) (V m c main_arg2) (V m c main_v0) (iblk m c 0 t) (iblk m c 2 t) (iblk m c 1 t) j
    (((cfg0.win 4).blk t).view.emb j) ?_ ?_ ?_
  · show V m c main_arg0 (((cfg0.win 0).blk t).view.emb j) = V m c main_arg0 (((cfg0.win 4).blk t).view.emb j)
    have h0 : ((cfg0.win 0).blk t).view.emb j = ((cfg0.win 4).blk t).view.emb j := by
      funext a; apply Fin.ext
      match a with
      | ⟨0, _⟩ => show win0_0.index t (0 : Fin 2) * 400 + 1 * (j 0).val = win0_4.index t (0 : Fin 2) * 400 + 1 * (j 0).val; omega
      | ⟨1, _⟩ => show win0_0.index t (1 : Fin 2) * 64 + 1 * (j 1).val = win0_4.index t (1 : Fin 2) * 64 + 1 * (j 1).val; omega
    rw [h0]
  · show V m c main_arg2 (((cfg0.win 2).blk t).view.emb j) = V m c main_arg2 (((cfg0.win 4).blk t).view.emb j)
    have h2 : ((cfg0.win 2).blk t).view.emb j = ((cfg0.win 4).blk t).view.emb j := by
      funext a; apply Fin.ext
      match a with
      | ⟨0, _⟩ => show win0_2.index t (0 : Fin 2) * 400 + 1 * (j 0).val = win0_4.index t (0 : Fin 2) * 400 + 1 * (j 0).val; omega
      | ⟨1, _⟩ => show win0_2.index t (1 : Fin 2) * 64 + 1 * (j 1).val = win0_4.index t (1 : Fin 2) * 64 + 1 * (j 1).val; omega
    rw [h2]
  · intro k
    show V m c main_v0 (((cfg0.win 1).blk t).view.emb (ix2 (j 0) (flatCol k (j 1))))
      = V m c main_v0 (ix2 ((((cfg0.win 4).blk t).view.emb j) 0) (flatCol k ((((cfg0.win 4).blk t).view.emb j) 1)))
    have h1 : ((cfg0.win 1).blk t).view.emb (ix2 (j 0) (flatCol k (j 1)))
        = ix2 ((((cfg0.win 4).blk t).view.emb j) 0) (flatCol k ((((cfg0.win 4).blk t).view.emb j) 1)) := by
      funext a; apply Fin.ext
      match a with
      | ⟨0, _⟩ => show win0_1.index t (0 : Fin 2) * 400 + 1 * (j 0).val = win0_4.index t (0 : Fin 2) * 400 + 1 * (j 0).val; omega
      | ⟨1, _⟩ =>
        show win0_1.index t (1 : Fin 2) * 2048 + 1 * (k.val * 64 + (j 1).val)
          = k.val * 64 + (win0_4.index t (1 : Fin 2) * 64 + 1 * (j 1).val)
        omega
    exact congrArg (V m c main_v0) h1

/-- What point `t` writes back to the flat slot output is block `t` of the flat slot blend of the arrays the region
    finds. -/
theorem flushed5_eq (c : Dev nD) (t : Fin cfg0.N) :
    (dats m 0 c).flushed 5 t = ((cfg0.win 5).blk t).view.read (Elt Ideal)
      (slotFlat (V m c main_arg0) (V m c main_v0) (V m c main_v1)) := by
  show (cfg0.win 5).cut (grid0.coords t) ((dats m 0 c).after 5 t) = _
  rw [after0_5]
  unfold out0_5
  rw [View.canon_unit_zero hz]
  simp only [View.ld_unit_zero (S := S400x64) hz, View.ld_unit_zero (S := S400x2048) hz]
  obtain ⟨e00, e01, e10, e11, e20, e21, e30, e31, e50, e51, e41⟩ := idx_facts t
  funext j
  refine slot_block (V m c main_arg0) (V m c main_v0) (V m c main_v1) (iblk m c 0 t) (iblk m c 1 t) (iblk m c 3 t) j
    (((cfg0.win 5).blk t).view.emb j) ?_ ?_ ?_
  · show V m c main_v0 (((cfg0.win 1).blk t).view.emb j) = V m c main_v0 (((cfg0.win 5).blk t).view.emb j)
    have h1 : ((cfg0.win 1).blk t).view.emb j = ((cfg0.win 5).blk t).view.emb j := by
      funext a; apply Fin.ext
      match a with
      | ⟨0, _⟩ => show win0_1.index t (0 : Fin 2) * 400 + 1 * (j 0).val = win0_5.index t (0 : Fin 2) * 400 + 1 * (j 0).val; omega
      | ⟨1, _⟩ => show win0_1.index t (1 : Fin 2) * 2048 + 1 * (j 1).val = win0_5.index t (1 : Fin 2) * 2048 + 1 * (j 1).val; omega
    rw [h1]
  · show V m c main_v1 (((cfg0.win 3).blk t).view.emb j) = V m c main_v1 (((cfg0.win 5).blk t).view.emb j)
    have h3 : ((cfg0.win 3).blk t).view.emb j = ((cfg0.win 5).blk t).view.emb j := by
      funext a; apply Fin.ext
      match a with
      | ⟨0, _⟩ => show win0_3.index t (0 : Fin 2) * 400 + 1 * (j 0).val = win0_5.index t (0 : Fin 2) * 400 + 1 * (j 0).val; omega
      | ⟨1, _⟩ => show win0_3.index t (1 : Fin 2) * 2048 + 1 * (j 1).val = win0_5.index t (1 : Fin 2) * 2048 + 1 * (j 1).val; omega
    rw [h3]
  · show V m c main_arg0 (((cfg0.win 0).blk t).view.emb (ix2 (j 0) (lane (j 1))))
      = V m c main_arg0 (ix2 ((((cfg0.win 5).blk t).view.emb j) 0) (lane ((((cfg0.win 5).blk t).view.emb j) 1)))
    have h0 : ((cfg0.win 0).blk t).view.emb (ix2 (j 0) (lane (j 1)))
        = ix2 ((((cfg0.win 5).blk t).view.emb j) 0) (lane ((((cfg0.win 5).blk t).view.emb j) 1)) := by
      funext a; apply Fin.ext
      match a with
      | ⟨0, _⟩ => show win0_0.index t (0 : Fin 2) * 400 + 1 * (j 0).val = win0_5.index t (0 : Fin 2) * 400 + 1 * (j 0).val; omega
      | ⟨1, _⟩ =>
        show win0_0.index t (1 : Fin 2) * 64 + 1 * ((j 1).val % 64) = (win0_5.index t (1 : Fin 2) * 2048 + 1 * (j 1).val) % 64
        omega
    exact congrArg (V m c main_arg0) h0

/-! ## The blocks cover the arrays -/

/-- An index of the node output is in point `t`'s block iff each coordinate is in the block's range on its axis. -/
theorem mem_blk4 (t : Fin cfg0.N) (i : S50000x64.Idx) :
    i ∈ ((cfg0.win 4).blk t).view.set ↔ ∀ a : Fin 2, win0_4.index t a * S400x64.size a ≤ (i a).val
      ∧ (i a).val < win0_4.index t a * S400x64.size a + S400x64.size a := by
  show i ∈ ((View.whole main_v2_0).slice (win0_4.rect t)).set ↔ _
  rw [View.set_slice_whole, Rect.mem_set_unit]
  exact Iff.rfl

/-- The same for the flat slot output. -/
theorem mem_blk5 (t : Fin cfg0.N) (i : S50000x2048.Idx) :
    i ∈ ((cfg0.win 5).blk t).view.set ↔ ∀ a : Fin 2, win0_5.index t a * S400x2048.size a ≤ (i a).val
      ∧ (i a).val < win0_5.index t a * S400x2048.size a + S400x2048.size a := by
  show i ∈ ((View.whole main_v2_1).slice (win0_5.rect t)).set ↔ _
  rw [View.set_slice_whole, Rect.mem_set_unit]
  exact Iff.rfl

/-- Row `r` of the node output lies in the block of point `r / 400`. -/
theorem cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 64 ≤ (i 1).val ∧ (i 1).val < win0_4.index t (1 : Fin 2) * 64 + 64
    omega

/-- Row `r` of the flat slot output lies in the block of point `r / 400`. -/
theorem cover5 (i : S50000x2048.Idx) :
    ∃ t : Fin cfg0.N, (cfg0.win 5).flush t = true ∧ i ∈ ((cfg0.win 5).blk t).view.set := by
  have hi0 : (i 0).val < 50000 := (i 0).isLt
  have hi1 : (i 1).val < 2048 := (i 1).isLt
  obtain ⟨t, ht⟩ := idx_onto ⟨(i 0).val / 400, by omega⟩
  have q0 : win0_4.index t (0 : Fin 2) = (i 0).val / 400 := congrFun ht 0
  obtain ⟨e00, e01, e10, e11, e20, e21, e30, e31, e50, e51, e41⟩ := idx_facts t
  refine ⟨t, flush0_5 t, ?_⟩
  rw [mem_blk5]
  intro a
  match a with
  | ⟨0, _⟩ =>
    show win0_5.index t (0 : Fin 2) * 400 ≤ (i 0).val ∧ (i 0).val < win0_5.index t (0 : Fin 2) * 400 + 400
    omega
  | ⟨1, _⟩ =>
    show win0_5.index t (1 : Fin 2) * 2048 ≤ (i 1).val ∧ (i 1).val < win0_5.index t (1 : Fin 2) * 2048 + 2048
    omega

/-! ## The arrays after the run -/

/-- The node output after the run is the flat node blend of the arrays the region finds. -/
theorem final4 (c : Dev nD) :
    (dats m 0 c).arrAt 4 cfg0.N = nodeFlat (V m c main_arg0) (V m c main_arg2) (V m c main_v0) :=
  (dats m 0 c).arrAt_eq_of_cover 4 _ (fun t _ => flushed4_eq m c t) cover4

/-- The flat slot output after the run is the flat slot blend of the arrays the region finds. -/
theorem final5 (c : Dev nD) :
    (dats m 0 c).arrAt 5 cfg0.N = slotFlat (V m c main_arg0) (V m c main_v0) (V m c main_v1) :=
  (dats m 0 c).arrAt_eq_of_cover 5 _ (fun t _ => flushed5_eq m c t) cover5

end Cert.KernelIdeal.Blocks

end
-- ==== Proof.Flatten.lean ====
/-
  Flattening the neighbour axis.

  Recasting a 50000 × 32 × 64 array to 50000 × 2048 keeps the row-major order, so column `k · 64 + d` of row `n` of
  the flat array is entry `(n, k, d)`, and recasting back reads entry `(n, k, d)` at that column. Hence the node blend
  of a flattened neighbour array is the node blend of the array itself, and the flat slot blend — the kernel's
  `(keep · g + keep · x) + init · nb` with the feature read at the column's lane — recast to three axes is the slot
  blend `keep · (g + x) + init · nb`: the lane of column `k · 64 + d` is `d`, and `keep` distributes over the sum.
-/
import proofs.«111451_j81192061764219_2_alg».proof.Proof.Blend
import Idealize.ShloMosaic.Lib.Pipeline.Value

noncomputable section

namespace Blend

open Idealize.ShloMosaic Idealize.ShloMosaic.ValueIdx

/-- Column `k · 64 + d` of row `n` of the flattened array is entry `(n, k, d)`. -/
theorem flatten_apply (g : FVec Ideal SSlot .f32) (hc : SSlot.ShapeCasts SFlat) (n : Fin 50000) (k : Fin 32) (d : Fin 64) :
    shapeCast SFlat g hc (ix2 n (flatCol k d)) = g (ix3 n k d) :=
  shapeCast_apply g hc (ix2 n (flatCol k d)) (ix3 n k d) (by
    rw [Shape.rowMajor_val_three, Shape.rowMajor_val_two]
    show (n.val * 32 + k.val) * 64 + d.val = n.val * 2048 + (k.val * 64 + d.val)
    omega)

/-- Entry `(n, k, d)` of a flat array recast to three axes is column `k · 64 + d` of row `n`. -/
theorem unflatten_apply (a : FVec Ideal SFlat .f32) (hc : SFlat.ShapeCasts SSlot) (n : Fin 50000) (k : Fin 32) (d : Fin 64) :
    shapeCast SSlot a hc (ix3 n k d) = a (ix2 n (flatCol k d)) :=
  shapeCast_apply a hc (ix3 n k d) (ix2 n (flatCol k d)) (by
    rw [Shape.rowMajor_val_three, Shape.rowMajor_val_two]
    show n.val * 2048 + (k.val * 64 + d.val) = (n.val * 32 + k.val) * 64 + d.val
    omega)

/-- The node blend of a flattened neighbour array is the node blend of the array. -/
theorem nodeFlat_flatten (x h : FVec Ideal SNode .f32) (g : FVec Ideal SSlot .f32) (hc : SSlot.ShapeCasts SFlat) :
    nodeFlat x h (shapeCast SFlat g hc) = node x h g := by
  funext i
  obtain ⟨n, d, rfl⟩ : ∃ (n : Fin 50000) (d : Fin 64), i = ix2 n d := ⟨i 0, i 1, eq_ix2 i⟩
  show keep * (x (ix2 n d) + ∑ k : Fin 32, shapeCast SFlat g hc (ix2 n (flatCol k d))) + init * h (ix2 n d)
    = keep * (x (ix2 n d) + ∑ k : Fin 32, g (ix3 n k d)) + init * h (ix2 n d)
  simp only [flatten_apply]

/-- The flat slot blend of flattened arrays, recast to three axes, is the slot blend of the arrays. -/
theorem slotFlat_unflatten (x : FVec Ideal SNode .f32) (g nb : FVec Ideal SSlot .f32) (hc : SSlot.ShapeCasts SFlat)
    (hc' : SFlat.ShapeCasts SSlot) :
    shapeCast SSlot (slotFlat x (shapeCast SFlat g hc) (shapeCast SFlat nb hc)) hc' = slot x g nb := by
  funext i
  obtain ⟨n, k, d, rfl⟩ : ∃ (n : Fin 50000) (k : Fin 32) (d : Fin 64), i = ix3 n k d := ⟨i 0, i 1, i 2, eq_ix3 i⟩
  rw [unflatten_apply]
  show keep * shapeCast SFlat g hc (ix2 n (flatCol k d)) + keep * x (ix2 n (lane (flatCol k d)))
      + init * shapeCast SFlat nb hc (ix2 n (flatCol k d))
    = keep * (g (ix3 n k d) + x (ix2 n d)) + init * nb (ix3 n k d)
  rw [flatten_apply, flatten_apply, lane_flatCol, keep_distrib]

end Blend

end
-- ==== Proof.KernelRun.lean ====
/-
  The kernel's run, with both results as functions of the arguments.

  Before the region the program recasts the two neighbour arrays to 2048 columns; the region fills the node output
  and the flat slot output (Proof/Blocks.lean); after it the program recasts the flat slot output to three axes. So
  the first result is the flat node blend of the recast neighbour array, which is the node blend of the arguments,
  and the second is the flat slot blend of the recast arrays, recast back, which is the slot blend of the arguments
  (Proof/Flatten.lean). The argument arrays end as they began.
-/
import proofs.«111451_j81192061764219_2_alg».proof.Proof.Gen.KernelIdeal.Frame
import proofs.«111451_j81192061764219_2_alg».proof.Proof.Blocks
import proofs.«111451_j81192061764219_2_alg».proof.Proof.Flatten
import Idealize.ShloMosaic.Lib.StableHlo.Run

noncomputable section

namespace Cert.KernelIdeal.Whole

open Cert.KernelIdeal Cert.KernelIdeal.Gen Cert.KernelIdeal.Blocks Idealize.ShloMosaic Idealize.ShloMosaic.TcCoe
open Idealize.SL.Sem Idealize.ShloMosaic.StableHlo Blend
open Idealize.ShloMosaic.Pipeline (Dat)

variable (m : (ℓ : Loc nD τ sig) → Buf (Elt Ideal) ℓ) (ρ : Dev nD → PrngReg)

/-! ## The arrays the region finds -/

/-- The flat aggregated-neighbour array the region finds is the argument recast to 2048 columns. -/
theorem V_agg (c : Dev nD) :
    (V m c main_v0 : S50000x2048.Idx → EReal)
      = shapeCast S50000x2048 (m ((c : Thread nD τ).loc main_arg1)) shapeCasts_S50000x32x64_S50000x2048 := by
  show StableHlo.after hostOps0 (fun b => m (c, b)) (Proc.devRef .tc main_v0) = _
  after_results
  rfl

/-- The flat initial-neighbour array the region finds is the argument recast to 2048 columns. -/
theorem V_nbr (c : Dev nD) :
    (V m c main_v1 : S50000x2048.Idx → EReal)
      = shapeCast S50000x2048 (m ((c : Thread nD τ).loc main_arg3)) shapeCasts_S50000x32x64_S50000x2048 := by
  show StableHlo.after hostOps0 (fun b => m (c, b)) (Proc.devRef .tc main_v1) = _
  after_results
  rfl

/-! ## The two results -/

/-- The node output after the run is the node blend of the arguments. -/
theorem node_final (c : Dev nD) :
    (dats m 0 c).arrAt 4 cfg0.N
      = node (m ((c : Thread nD τ).loc main_arg0)) (m ((c : Thread nD τ).loc main_arg2)) (m ((c : Thread nD τ).loc main_arg1)) := by
  rw [final4, V_main_arg0, V_main_arg2, V_agg]
  exact nodeFlat_flatten _ _ _ _

/-- What the line after the region leaves in the second result: the flat slot output recast to three axes. -/
theorem tail_eq (c : Dev nD) :
    Pipeline.afterTail₀ cfgs (dats m) 0 (V0 m) [hostOps1] c main_v3
      = shapeCast S50000x32x64 ((dats m 0 c).arrAt 5 cfg0.N) shapeCasts_S50000x2048_S50000x32x64 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2_1) = (dats m 0 c).arrAt 5 cfg0.N :=
    Pipeline.withArrays_arr spec0 launch0.win.arr_inj c (V0 m c) (fun w => (dats m 0 c).arrAt w cfg0.N) 5
  rw [e]
  rfl

/-- The second result after the run is the slot blend of the arguments. -/
theorem slot_final (c : Dev nD) :
    Pipeline.afterTail₀ cfgs (dats m) 0 (V0 m) [hostOps1] c main_v3
      = slot (m ((c : Thread nD τ).loc main_arg0)) (m ((c : Thread nD τ).loc main_arg1)) (m ((c : Thread nD τ).loc main_arg3)) := by
  rw [tail_eq, final5, V_main_arg0, V_agg, V_nbr]
  exact slotFlat_unflatten _ _ _ _ _

/-! ## The run -/

/-- Every weakly fair execution of the idealized kernel program terminates with the first result at the node blend
    and the second at the slot blend of the arguments, and the arguments unchanged. -/
theorem run : θ_run defs (onTc (τ := τ) (main (F := Ideal))) ⟨m, fun _ => 0, ρ⟩ fun r => ∀ c : Dev nD,
      r.2.mem ((c.tc : Thread nD τ).loc main_v2_0)
        = node (m ((c.tc : Thread nD τ).loc main_arg0)) (m ((c.tc : Thread nD τ).loc main_arg2)) (m ((c.tc : Thread nD τ).loc main_arg1))
      ∧ r.2.mem ((c.tc : Thread nD τ).loc main_v3)
        = slot (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).1 4).trans (node_final m c),
       ((h c).2 main_v3 (Pipeline.mem_restRefs_of main_v3 (by decide) (by decide))).trans (slot_final m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.Whole

end
-- ==== Proof.lean ====
/-
  The kernel and its reference compute the same residual blend.

  With `keep` and `init` the f32 numbers nearest 0.9 and 0.1 (the same two words in both programs), both programs
  return, as extended reals and index by index,

    node (n, d)    = keep · (x (n, d) + Σ_k g (n, k, d)) + init · h (n, d)
    slot (n, k, d) = keep · (g (n, k, d) + x (n, d))     + init · nb (n, k, d)

  (Proof/Blend.lean). The reference computes them operation by operation (Proof/RefBlend.lean). The kernel works on
  the neighbour arrays recast to 2048 columns, 400 rows per grid point: it sums the 32 neighbours by a five-level
  halving tree over the columns, which is the same sum in another grouping (Proof/LibHalving.lean, Proof/Payload.lean),
  and spells the slot result `(keep · g + keep · x) + init · nb`, which is the same number because `keep` is a
  nonnegative real and so distributes over every sum of extended reals (Proof/Flatten.lean). The 125 blocks of 400
  rows cover the arrays (Proof/Blocks.lean), and the recasts before and after the region keep the row-major order
  (Proof/KernelRun.lean). No step needs the inputs to be finite. Nothing was rewritten in idealizing the kernel, so
  there is nothing to preserve, and each program runs to the end with its arguments unchanged.
-/
import proofs.«111451_j81192061764219_2_alg».proof.Defs
import proofs.«111451_j81192061764219_2_alg».proof.Proof.Gen.Kernel
import proofs.«111451_j81192061764219_2_alg».proof.Proof.Gen.Kernel.Skeleton
import proofs.«111451_j81192061764219_2_alg».proof.Proof.Gen.Kernel.Launch
import proofs.«111451_j81192061764219_2_alg».proof.Proof.Gen.Kernel.Points
import proofs.«111451_j81192061764219_2_alg».proof.Proof.Gen.Kernel.Frame
import proofs.«111451_j81192061764219_2_alg».proof.Proof.Gen.KernelIdeal
import proofs.«111451_j81192061764219_2_alg».proof.Proof.Gen.KernelIdeal.Skeleton
import proofs.«111451_j81192061764219_2_alg».proof.Proof.Gen.KernelIdeal.Launch
import proofs.«111451_j81192061764219_2_alg».proof.Proof.Gen.KernelIdeal.Points
import proofs.«111451_j81192061764219_2_alg».proof.Proof.Gen.KernelIdeal.Frame
import proofs.«111451_j81192061764219_2_alg».proof.Proof.Gen.ReferenceIdeal
import proofs.«111451_j81192061764219_2_alg».proof.Proof.Gen.Pre_finite_inputs
import proofs.«111451_j81192061764219_2_alg».proof.Proof.Gen.ReferenceIdeal.Run
import proofs.«111451_j81192061764219_2_alg».proof.Proof.Gen.ReferenceIdeal.Read
import proofs.«111451_j81192061764219_2_alg».proof.Proof.RefBlend
import proofs.«111451_j81192061764219_2_alg».proof.Proof.KernelRun
import Idealize.ShloMosaic.Adequacy
import Idealize.ShloMosaic.Init

noncomputable section

namespace Cert.Proof

open Idealize.ShloMosaic Idealize.ShloMosaic.TcCoe Idealize.SL.Sem

variable [Cert.Kernel.Facts] [Cert.KernelIdeal.Facts] [Cert.ReferenceIdeal.Facts] [Cert.Pre_finite_inputs.Facts]

/-- The kernel as printed runs to the end with its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four arguments both idealized programs end with the node blend and the slot blend
    of those arguments. -/
theorem algebraic : Cert.algebraic_KernelIdeal_ReferenceIdeal := by
  intro m ρ m' ρ' _ hagree
  refine ⟨fun c => Blend.node (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg1)),
      fun c => Blend.slot (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)),
      Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v9_eq, Cert.ReferenceIdeal.RefBlend.node_eq, (hagree c).1,
      (hagree c).2.1, (hagree c).2.2.1]
  · rw [(h c).2.1, Cert.ReferenceIdeal.Read.val_main_v14_eq, Cert.ReferenceIdeal.RefBlend.slot_eq, (hagree c).1,
      (hagree c).2.1, (hagree c).2.2.2]

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
